-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x11008 : Shape := ⟨2, ![4096, 11008]⟩
abbrev S64x11008 : Shape := ⟨2, ![64, 11008]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S64x11008 : S_.BroadcastsInDim S64x11008 (![] : Fin 0 → Fin S64x11008.rank)
  reducesTo_S64x11008_S_d0_1 : S64x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4096x4096 .f32) (main_arg1 : IVec S4096x11008 32) (main_arg2 : FVec F S64x11008 .f32) (main_arg3 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S64x11008 .f32 := Host.absf main_arg2
  let main_cst_0 : FVec F S_ .f32 := constant S_ .f32 0x7F800000#32
  let main_v5 : FVec F S64x11008 .f32 := broadcastInDim S64x11008 ![] bcast_S_S64x11008 main_cst_0
  let main_v6 : IVec S64x11008 1 := cmpf .olt main_v4 main_v5
  let main_c_1 : IVec S_ 1 := constantI S_ 1 1#1
  let main_v7 : IVec S_ 1 := (fun x v => Host.reduce IntOp.andi x v reducesTo_S64x11008_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4096x4096 : Shape := ⟨2, ![4096, 4096]⟩
abbrev S4096x11008 : Shape := ⟨2, ![4096, 11008]⟩
abbrev S64x11008 : Shape := ⟨2, ![64, 11008]⟩
abbrev S11008 : Shape := ⟨1, ![11008]⟩
abbrev S_ : Shape := ⟨0, ![]⟩
abbrev S4096x11264 : Shape := ⟨2, ![4096, 11264]⟩
abbrev S64x11264 : Shape := ⟨2, ![64, 11264]⟩
abbrev S11264 : Shape := ⟨1, ![11264]⟩
abbrev S1x11264 : Shape := ⟨2, ![1, 11264]⟩
abbrev S1024x512 : Shape := ⟨2, ![1024, 512]⟩
abbrev S512x1024 : Shape := ⟨2, ![512, 1024]⟩
abbrev S8x1024 : Shape := ⟨2, ![8, 1024]⟩
abbrev S1x1024 : Shape := ⟨2, ![1, 1024]⟩
abbrev S1024x1024 : Shape := ⟨2, ![1024, 1024]⟩
abbrev S512x8 : Shape := ⟨2, ![512, 8]⟩

abbrev nBuf : Space → Nat
  | .hbm => 16
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x11008, .i32⟩
  | .hbm, ⟨2, _⟩ => ⟨S64x11008, .f32⟩
  | .hbm, ⟨3, _⟩ => ⟨S11008, .f32⟩
  | .hbm, ⟨4, _⟩ => ⟨S_, .i32⟩
  | .hbm, ⟨5, _⟩ => ⟨S_, .i32⟩
  | .hbm, ⟨6, _⟩ => ⟨S4096x11264, .i32⟩
  | .hbm, ⟨7, _⟩ => ⟨S_, .i32⟩
  | .hbm, ⟨8, _⟩ => ⟨S_, .f32⟩
  | .hbm, ⟨9, _⟩ => ⟨S64x11264, .f32⟩
  | .hbm, ⟨10, _⟩ => ⟨S_, .i32⟩
  | .hbm, ⟨11, _⟩ => ⟨S_, .f32⟩
  | .hbm, ⟨12, _⟩ => ⟨S11264, .f32⟩
  | .hbm, ⟨13, _⟩ => ⟨S1x11264, .f32⟩
  | .hbm, ⟨14, _⟩ => ⟨S4096x11264, .f32⟩
  | .hbm, ⟨15, _⟩ => ⟨S4096x11008, .f32⟩
  | .local _ .vmem, ⟨0, _⟩ => ⟨S1024x512, .f32⟩
  | .local _ .vmem, ⟨1, _⟩ => ⟨S1024x512, .f32⟩
  | .local _ .vmem, ⟨2, _⟩ => ⟨S512x1024, .i32⟩
  | .local _ .vmem, ⟨3, _⟩ => ⟨S512x1024, .i32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 8], ![false, false, false]⟩

def k0_cond2 (i : grid0.Coords) : BitVec 1 :=
  let arg2 : BitVec 32 := BitVec.ofNat 32 (i 2).val
  let c7_i32 : BitVec 32 := 7#32
  let v50 : BitVec 1 := Scalar.cmpi .eq arg2 c7_i32
  let v51 : BitVec 32 := Scalar.extui v50
  let c0_i32_16 : BitVec 32 := 0#32
  let v52 : BitVec 1 := Scalar.cmpi .ne v51 c0_i32_16
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S4096x11008_S4096x11264_000_02560 : S4096x11008.Pads (![0, 0] : Fin 2 → Nat) ![0, 256] ![0, 0] S4096x11264
  h_S_ : 0 < S_.numel
  pads_S64x11008_S64x11264_000_02560 : S64x11008.Pads (![0, 0] : Fin 2 → Nat) ![0, 256] ![0, 0] S64x11264
  pads_S11008_S11264_02560 : S11008.Pads (![0] : Fin 1 → Nat) ![256] ![0] S11264
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S512x8_d0_w32 : S512x8.Iotas .tc 32 [0]
  natLt_1_32 : 1 < 32
  iota_S512x8_d1_w32 : S512x8.Iotas .tc 32 [1]
  bitsLt_bf16_f32 : FTy.bits .bf16 < FTy.bits .f32
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x11264_S4096x11008_0_0 : S4096x11264.Slices ![0, 0] S4096x11008
  dot_S512x8_S8x1024_S512x1024_1_0_0_1_n_n_wf : DotDims.WF S512x8 S8x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x11264.size a
  hwx0_1 : ∀ i : grid0.Coords, EltTy.bits .i32 = 32 ∨ (Rect.block (s := S4096x11264) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x11264.size a
  hwx0_2 : ∀ i : grid0.Coords, EltTy.bits .f32 = 32 ∨ (Rect.block (s := S64x11264) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x11264.size a
  hwx0_3 : ∀ i : grid0.Coords, EltTy.bits .f32 = 32 ∨ (Rect.block (s := S1x11264) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x11264.size a
  hwx0_4 : ∀ i : grid0.Coords, EltTy.bits .f32 = 32 ∨ (Rect.block (s := S4096x11264) S1024x1024.size (cc0_transform_4 i) (hinb0_4 i)).WholeWords (EltTy.packing .f32)

variable [Facts₀]

def dot_S512x8_S8x1024_S512x1024_1_0_0_1_n_n : DotDims S512x8 S8x1024 S512x1024 where
  lhsContracting := [1]
  rhsContracting := [0]
  lhsNonContracting := [0]
  rhsNonContracting := [1]
  lhsBatch := []
  rhsBatch := []
  wf := dot_S512x8_S8x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x11008 : Shape := ⟨2, ![4096, 11008]⟩
abbrev S64x11008 : Shape := ⟨2, ![64, 11008]⟩
abbrev S11008 : Shape := ⟨1, ![11008]⟩
abbrev S64x64x11008 : Shape := ⟨3, ![64, 64, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .i32⟩
  | .hbm, ⟨2, _⟩ => ⟨S64x11008, .f32⟩
  | .hbm, ⟨3, _⟩ => ⟨S11008, .f32⟩
  | .hbm, ⟨4, _⟩ => ⟨S4096x11008, .f32⟩
  | .hbm, ⟨5, _⟩ => ⟨S64x64x11008, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S1x11008, .f32⟩
  | .hbm, ⟨10, _⟩ => ⟨S4096x11008, .f32⟩
  | .hbm, ⟨11, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S64x11008_S64x64x11008_0_2 : S64x11008.BroadcastsInDim S64x64x11008 (![0, 2] : Fin 2 → Fin S64x64x11008.rank)
  shapeCasts_S64x64x11008_S4096x11008 : S64x64x11008.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.Pieces.lean ====
/-
  What one grid point's body leaves behind, as pure terms of what it loaded.

  The body keeps a running block `acc` [1024, 1024] in a buffer of its own across the 8 points that share an output
  block.  Every point adds the product of its `x` block with its dequantized weight tile to `acc` (`k0_pay1`, the tile
  being `k0_pay4` of the scales block and the codes block); the first of the 8 points first resets `acc` to zero
  (`k0_pay3`), the last also writes `acc` plus the bias row (`k0_pay2`) to the output block.  Each store covers its whole
  buffer and each load reads a whole buffer, so what a buffer ends holding is the last store's value, and a load after a
  store reads that store's value.
-/
import proofs.«109246_j86028194939446_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PieceVal

open Cert.KernelIdeal Cert.KernelIdeal.Gen

variable {F : FTy → Type} [FloatOps F]

theorem hz : (![0, 0] : Fin 2 → Nat) = fun _ => 0 := funext fun a => by fin_cases a <;> rfl

/-- A middle point (neither first nor last of its 8): the running block `xs0` becomes `xs0 + x · w`. -/
theorem sout_B (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x512 .f32) (x1 : Vec F S512x1024 .i32) (x2 : Vec F S8x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay1 (k0_pay4 x2 x1) x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread,
    View.ld_unit_zero (S := S1024x512) hz, View.ld_unit_zero (S := S512x1024) hz, View.ld_unit_zero (S := S8x1024) hz,
    View.ld_unit_zero (S := S1024x1024) hz]

/-- The last point of the 8 updates the running block in the same way. -/
theorem sout_C (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .f32) (x1 : Vec F S512x1024 .i32) (x2 : Vec F S8x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay1 (k0_pay4 x2 x1) x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread,
    View.ld_unit_zero (S := S1024x512) hz, View.ld_unit_zero (S := S512x1024) hz, View.ld_unit_zero (S := S8x1024) hz,
    View.ld_unit_zero (S := S1024x1024) hz]

/-- and then writes the updated running block plus the bias row to the output block (the load of the running block
    comes after its store, so it reads the updated value). -/
theorem out_C (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .f32) (x1 : Vec F S512x1024 .i32) (x2 : Vec F S8x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay2 (k0_pay1 (k0_pay4 x2 x1) x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg8.read_unread,
    View.ld_unit_zero (S := S1024x512) hz, View.ld_unit_zero (S := S512x1024) hz, View.ld_unit_zero (S := S8x1024) hz,
    View.ld_unit_zero (S := S1x1024) hz, View.ld_unit_zero (S := S1024x1024) hz]

/-- The first point of the 8: the running block is reset to zero and then updated, `0 + x · w`, whatever it held. -/
theorem sout_A (c : Dev nD) (i : grid0.Coords) (arg3 : Memref sig .tc .vmem S1024x512 .f32) (harg3 : arg3.IsWhole) (arg4 : Memref sig .tc .vmem S512x1024 .i32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x512 .f32) (x1 : Vec F S512x1024 .i32) (x2 : Vec F S8x1024 .f32) (x3 : Vec F S1x1024 .f32) :
    sout0_A_0 c i arg3 harg3 arg4 harg4 arg5 harg5 arg6 harg6 arg7 harg7 arg8 harg8 hc0 hc1 x0 x1 x2 x3 = k0_pay1 (k0_pay4 x2 x1) x0 (k0_pay3 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread,
    View.ld_unit_zero (S := S1024x512) hz, View.ld_unit_zero (S := S512x1024) hz, View.ld_unit_zero (S := S8x1024) hz]

end Cert.KernelIdeal.PieceVal

end
-- ==== Proof.Spec.lean ====
/-
  The grouped, weight-quantized product as ONE function of the four argument arrays, on the extended reals.

  The weight is stored as integer codes `Q[k, n]` with one scale per group of 64 consecutive rows, `S[k / 64, n]`:
  its dequantized entry is `Q[k, n] · S[k / 64, n]`.  The result at `(p, n)` is
  `(∑ₖ X[p, k] · (Q[k, n] · S[k / 64, n])) + B[n]`, the sum over all 4096 rows of the weight.  The number of columns
  `N` is a parameter: the same formula is read over the arrays as given and over the arrays padded with extra columns,
  and a column's value depends only on that column of `Q`, `S` and `B` (`G_congr`).
-/
import Idealize.ShloMosaic.PureOps.Ideal
import Idealize.ShloMosaic.Lib.ValueIdx

noncomputable section

open scoped BigOperators

namespace Cert.GroupedGemm

open Idealize.ShloMosaic Idealize.ShloMosaic.ValueIdx

variable {N : Nat}

/-- Row `k` of the weight lies in quantization group `k / 64`. -/
def grp (k : Fin 4096) : Fin 64 := ⟨k.val / 64, by have := k.isLt; omega⟩

/-- The dequantized weight at `(k, n)`: the integer code, read as a real, times its group's scale. -/
def deq (Q : (⟨2, ![4096, N]⟩ : Shape).Idx → BitVec 32) (S : (⟨2, ![64, N]⟩ : Shape).Idx → EReal)
    (k : Fin 4096) (n : Fin N) : EReal :=
  FloatOps.sitofp (F := Ideal) .f32 (Q (ix2 k n)) * S (ix2 (grp k) n)

/-- Row `p` of `X` against column `n` of the dequantized weight. -/
def dotAt (X : (⟨2, ![4096, 4096]⟩ : Shape).Idx → EReal) (Q : (⟨2, ![4096, N]⟩ : Shape).Idx → BitVec 32)
    (S : (⟨2, ![64, N]⟩ : Shape).Idx → EReal) (p : Fin 4096) (n : Fin N) : EReal :=
  ∑ k : Fin 4096, X (ix2 p k) * deq Q S k n

/-- The result at row `p`, column `n`. -/
def Gat (X : (⟨2, ![4096, 4096]⟩ : Shape).Idx → EReal) (Q : (⟨2, ![4096, N]⟩ : Shape).Idx → BitVec 32)
    (S : (⟨2, ![64, N]⟩ : Shape).Idx → EReal) (B : (⟨1, ![N]⟩ : Shape).Idx → EReal)
    (p : Fin 4096) (n : Fin N) : EReal :=
  dotAt X Q S p n + B (ix1 n)

/-- The whole result array. -/
def G (X : (⟨2, ![4096, 4096]⟩ : Shape).Idx → EReal) (Q : (⟨2, ![4096, N]⟩ : Shape).Idx → BitVec 32)
    (S : (⟨2, ![64, N]⟩ : Shape).Idx → EReal) (B : (⟨1, ![N]⟩ : Shape).Idx → EReal) :
    (⟨2, ![4096, N]⟩ : Shape).Idx → EReal :=
  fun i => Gat X Q S B (i 0) (i 1)

theorem G_apply (X : (⟨2, ![4096, 4096]⟩ : Shape).Idx → EReal) (Q : (⟨2, ![4096, N]⟩ : Shape).Idx → BitVec 32)
    (S : (⟨2, ![64, N]⟩ : Shape).Idx → EReal) (B : (⟨1, ![N]⟩ : Shape).Idx → EReal)
    (p : Fin 4096) (n : Fin N) : G X Q S B (ix2 p n) = Gat X Q S B p n := rfl

/-- A column of the result reads only that column of the codes, the scales and the bias: if two sets of arrays, of
    `N` and of `N'` columns, agree on column `n` (sitting at `n'` in the second), the results there agree. -/
theorem Gat_congr {N' : Nat} (X : (⟨2, ![4096, 4096]⟩ : Shape).Idx → EReal)
    (Q : (⟨2, ![4096, N]⟩ : Shape).Idx → BitVec 32) (S : (⟨2, ![64, N]⟩ : Shape).Idx → EReal) (B : (⟨1, ![N]⟩ : Shape).Idx → EReal)
    (Q' : (⟨2, ![4096, N']⟩ : Shape).Idx → BitVec 32) (S' : (⟨2, ![64, N']⟩ : Shape).Idx → EReal) (B' : (⟨1, ![N']⟩ : Shape).Idx → EReal)
    (p : Fin 4096) (n : Fin N) (n' : Fin N')
    (hQ : ∀ k : Fin 4096, Q' (ix2 k n') = Q (ix2 k n)) (hS : ∀ g : Fin 64, S' (ix2 g n') = S (ix2 g n))
    (hB : B' (ix1 n') = B (ix1 n)) :
    Gat X Q' S' B' p n' = Gat X Q S B p n := by
  unfold Gat dotAt deq
  rw [hB]
  refine congrArg (· + B (ix1 n)) (Finset.sum_congr rfl fun k _ => ?_)
  rw [hQ, hS]

end Cert.GroupedGemm

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Tiles.lean ====
/-
  The contraction over the 4096 rows of the weight, cut into 8 tiles of 512 consecutive rows: position `r` of tile `t`
  is row `512 t + r`, whose quantization group is `8 t + r / 64` — group `r / 64` among the tile's own 8 groups.
-/
import proofs.«109246_j86028194939446_1_alg».proof.Proof.Spec
import proofs.«109246_j86028194939446_1_alg».proof.Proof.LibSums

noncomputable section

open scoped BigOperators

namespace Cert.GroupedGemm

open Idealize.ShloMosaic Idealize.ShloMosaic.ValueIdx

variable {N : Nat}

/-- Position `r` of tile `t`, as a row of the weight. -/
def row (t : Fin 8) (r : Fin 512) : Fin 4096 := ⟨512 * t.val + r.val, Cert.LibSums.tile_lt (T := 8) (R := 512) rfl t r⟩

/-- Tile `t`'s share of `dotAt`. -/
def tile (X : (⟨2, ![4096, 4096]⟩ : Shape).Idx → EReal) (Q : (⟨2, ![4096, N]⟩ : Shape).Idx → BitVec 32)
    (S : (⟨2, ![64, N]⟩ : Shape).Idx → EReal) (p : Fin 4096) (n : Fin N) (t : Fin 8) : EReal :=
  ∑ r : Fin 512, X (ix2 p (row t r)) * deq Q S (row t r) n

/-- The contraction is the sum of its 8 tiles. -/
theorem dotAt_tiles (X : (⟨2, ![4096, 4096]⟩ : Shape).Idx → EReal) (Q : (⟨2, ![4096, N]⟩ : Shape).Idx → BitVec 32)
    (S : (⟨2, ![64, N]⟩ : Shape).Idx → EReal) (p : Fin 4096) (n : Fin N) :
    dotAt X Q S p n = ∑ t : Fin 8, tile X Q S p n t := by
  unfold dotAt tile
  exact Cert.LibSums.sum_by_tiles (T := 8) (R := 512) (N := 4096) rfl _

/-- The group of position `r` of tile `t`. -/
theorem grp_row_val (t : Fin 8) (r : Fin 512) : (grp (row t r)).val = 8 * t.val + r.val / 64 := by
  show (512 * t.val + r.val) / 64 = 8 * t.val + r.val / 64
  omega

end Cert.GroupedGemm

end
-- ==== Proof.Blocks.lean ====
/-
  The blocks the body is handed at a grid point, read at an index of the arrays they are cut from.

  The grid is 4 × 11 × 8: a point `t` (counted with the last coordinate fastest) has row-block `t / 88`, column-block
  `t / 8 % 11` and contraction tile `t % 8`.  At that point the body sees rows `1024 i + p` and columns `512 k + r` of
  `X`; rows `512 k + r` and columns `1024 j + e` of the padded codes; groups `8 k + g` and the same columns of the
  padded scales; and the same columns of the padded bias row.
-/
import proofs.«109246_j86028194939446_1_alg».proof.Proof.Gen.KernelIdeal.Frame
import proofs.«109246_j86028194939446_1_alg».proof.Proof.Tiles
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.BlockVal

open Cert.KernelIdeal Cert.KernelIdeal.Gen

variable {F : FTy → Type} [FloatOps F]
variable (m : (ℓ : Loc nD τ sig) → Buf (Elt F) ℓ)

/-! ## A grid point's three coordinates -/

theorem N_eq : cfg0.N = 352 := N_0

/-- The row-block of a point (the slowest coordinate). -/
theorem lt_N (t : Fin cfg0.N) : t.val < 352 := lt_of_lt_of_eq t.isLt N_eq

def pi (t : Fin cfg0.N) : Fin 4 := ⟨t.val / 88, by have := lt_N t; omega⟩
/-- The column-block of a point. -/
def pj (t : Fin cfg0.N) : Fin 11 := ⟨t.val / 8 % 11, by omega⟩
/-- The contraction tile of a point (the fastest coordinate). -/
def pk (t : Fin cfg0.N) : Fin 8 := ⟨t.val % 8, by omega⟩

/-- Row `p` of row-block `i`, as a row of the 4096. -/
def gRow (i : Fin 4) (p : Fin 1024) : Fin 4096 := ⟨1024 * i.val + p.val, by omega⟩
/-- Column `e` of column-block `j`, as a column of the 11264. -/
def gCol (j : Fin 11) (e : Fin 1024) : Fin 11264 := ⟨1024 * j.val + e.val, by omega⟩
/-- Group `g` of tile `k`'s eight, as a group of the 64. -/
def gGrp (k : Fin 8) (g : Fin 8) : Fin 64 := ⟨8 * k.val + g.val, by omega⟩

/-! ## The printed index maps, decided once over the grid -/

theorem idx0 : ∀ t : Fin cfg0.N, win0_0.index t 0 = t.val / 88 ∧ win0_0.index t 1 = t.val % 8 :=
  (by decide +kernel : ∀ t : Fin grid0.N, win0_0.index t 0 = t.val / 88 ∧ win0_0.index t 1 = t.val % 8)
theorem idx1 : ∀ t : Fin cfg0.N, win0_1.index t 0 = t.val % 8 ∧ win0_1.index t 1 = t.val / 8 % 11 :=
  (by decide +kernel : ∀ t : Fin grid0.N, win0_1.index t 0 = t.val % 8 ∧ win0_1.index t 1 = t.val / 8 % 11)
theorem idx2 : ∀ t : Fin cfg0.N, win0_2.index t 0 = t.val % 8 ∧ win0_2.index t 1 = t.val / 8 % 11 :=
  (by decide +kernel : ∀ t : Fin grid0.N, win0_2.index t 0 = t.val % 8 ∧ win0_2.index t 1 = t.val / 8 % 11)
theorem idx3 : ∀ t : Fin cfg0.N, win0_3.index t 0 = 0 ∧ win0_3.index t 1 = t.val / 8 % 11 :=
  (by decide +kernel : ∀ t : Fin grid0.N, win0_3.index t 0 = 0 ∧ win0_3.index t 1 = t.val / 8 % 11)
theorem idx4 : ∀ t : Fin cfg0.N, win0_4.index t 0 = t.val / 88 ∧ win0_4.index t 1 = t.val / 8 % 11 :=
  (by decide +kernel : ∀ t : Fin grid0.N, win0_4.index t 0 = t.val / 88 ∧ win0_4.index t 1 = t.val / 8 % 11)

/-! ## The four input blocks at a point -/

/-- The `X` block: rows of row-block `i`, columns of tile `k`. -/
theorem iblk0_apply (c : Dev nD) (t : Fin cfg0.N) (p : Fin 1024) (r : Fin 512) :
    (iblk m c 0 t : Vec F S1024x512 .f32) (ix2 p r)
      = (V m c main_arg0 : S4096x4096.Idx → Elt F .f32) (ix2 (gRow (pi t) p) (Cert.GroupedGemm.row (pk t) r)) := by
  have hi := idx0 t
  unfold iblk
  rw [View.read_apply]
  show V m c main_arg0 _ = V m c main_arg0 _
  refine congrArg (V m c main_arg0) (funext fun a => Fin.ext ?_)
  match a with
  | ⟨0, _⟩ => show win0_0.index t 0 * 1024 + 1 * p.val = 1024 * (t.val / 88) + p.val; rw [hi.1]; omega
  | ⟨1, _⟩ => show win0_0.index t 1 * 512 + 1 * r.val = 512 * (t.val % 8) + r.val; rw [hi.2]; omega

/-- The codes block: rows of tile `k`, columns of column-block `j` (of the padded codes). -/
theorem iblk1_apply (c : Dev nD) (t : Fin cfg0.N) (r : Fin 512) (e : Fin 1024) :
    (iblk m c 1 t : Vec F S512x1024 .i32) (ix2 r e)
      = (V m c main_v0 : S4096x11264.Idx → Elt F .i32) (ix2 (Cert.GroupedGemm.row (pk t) r) (gCol (pj t) e)) := by
  have hi := idx1 t
  unfold iblk
  rw [View.read_apply]
  show V m c main_v0 _ = V m c main_v0 _
  refine congrArg (V m c main_v0) (funext fun a => Fin.ext ?_)
  match a with
  | ⟨0, _⟩ => show win0_1.index t 0 * 512 + 1 * r.val = 512 * (t.val % 8) + r.val; rw [hi.1]; omega
  | ⟨1, _⟩ => show win0_1.index t 1 * 1024 + 1 * e.val = 1024 * (t.val / 8 % 11) + e.val; rw [hi.2]; omega

/-- The scales block: the eight groups of tile `k`, columns of column-block `j` (of the padded scales). -/
theorem iblk2_apply (c : Dev nD) (t : Fin cfg0.N) (g : Fin 8) (e : Fin 1024) :
    (iblk m c 2 t : Vec F S8x1024 .f32) (ix2 g e)
      = (V m c main_v1 : S64x11264.Idx → Elt F .f32) (ix2 (gGrp (pk t) g) (gCol (pj t) e)) := by
  have hi := idx2 t
  unfold iblk
  rw [View.read_apply]
  show V m c main_v1 _ = V m c main_v1 _
  refine congrArg (V m c main_v1) (funext fun a => Fin.ext ?_)
  match a with
  | ⟨0, _⟩ => show win0_2.index t 0 * 8 + 1 * g.val = 8 * (t.val % 8) + g.val; rw [hi.1]; omega
  | ⟨1, _⟩ => show win0_2.index t 1 * 1024 + 1 * e.val = 1024 * (t.val / 8 % 11) + e.val; rw [hi.2]; omega

/-- The bias block: columns of column-block `j` of the padded bias row. -/
theorem iblk3_apply (c : Dev nD) (t : Fin cfg0.N) (e : Fin 1024) :
    (iblk m c 3 t : Vec F S1x1024 .f32) (ix2 (0 : Fin 1) e)
      = (V m c main_v3 : S1x11264.Idx → Elt F .f32) (ix2 (0 : Fin 1) (gCol (pj t) e)) := by
  have hi := idx3 t
  unfold iblk
  rw [View.read_apply]
  show V m c main_v3 _ = V m c main_v3 _
  refine congrArg (V m c main_v3) (funext fun a => Fin.ext ?_)
  match a with
  | ⟨0, _⟩ => show win0_3.index t 0 * 1 + 1 * 0 = 0; rw [hi.1]
  | ⟨1, _⟩ => show win0_3.index t 1 * 1024 + 1 * e.val = 1024 * (t.val / 8 % 11) + e.val; rw [hi.2]; omega

end Cert.KernelIdeal.BlockVal

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Payloads.lean ====
/-
  The four pure payload terms of the grouped int8-weight GEMM body, each read at an index on the extended reals:
  the zero block, the dequantized weight tile (integer code times the scale of its group of 64 rows), the
  accumulation step acc + x · w, and the bias row added to every row.
-/
import proofs.«109246_j86028194939446_1_alg».proof.Proof.Gen.KernelIdeal.Skeleton
import proofs.«109246_j86028194939446_1_alg».proof.Proof.LibDot
import Idealize.ShloMosaic.Lib.Pipeline.Value
import Idealize.ShloMosaic.Lib.ValueIdx
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-! ## Where the two products' dimension numbers send an output index and a contraction index -/

theorem dotA_lhs0 (i : S512x1024.Idx) (q : dot_S512x8_S8x1024_S512x1024_1_0_0_1_n_n.contr.Idx) :
    (dot_S512x8_S8x1024_S512x1024_1_0_0_1_n_n.lhsIdx i q 0).val = (i 0).val := by
  unfold DotDims.lhsIdx
  rw [dif_neg (show ¬(0 : Fin S512x8.rank) ∈ dot_S512x8_S8x1024_S512x1024_1_0_0_1_n_n.lhsBatch by decide), dif_pos (show (0 : Fin S512x8.rank) ∈ dot_S512x8_S8x1024_S512x1024_1_0_0_1_n_n.lhsNonContracting by decide)]
  rfl
theorem dotA_lhs1 (i : S512x1024.Idx) (q : dot_S512x8_S8x1024_S512x1024_1_0_0_1_n_n.contr.Idx) :
    (dot_S512x8_S8x1024_S512x1024_1_0_0_1_n_n.lhsIdx i q 1).val = (q ⟨0, by decide⟩).val :=
  dot_S512x8_S8x1024_S512x1024_1_0_0_1_n_n.lhsIdx_val_of_single rfl i q
theorem dotA_rhs0 (i : S512x1024.Idx) (q : dot_S512x8_S8x1024_S512x1024_1_0_0_1_n_n.contr.Idx) :
    (dot_S512x8_S8x1024_S512x1024_1_0_0_1_n_n.rhsIdx i q 0).val = (q ⟨0, by decide⟩).val :=
  dot_S512x8_S8x1024_S512x1024_1_0_0_1_n_n.rhsIdx_val_of_single rfl i q
theorem dotA_rhs1 (i : S512x1024.Idx) (q : dot_S512x8_S8x1024_S512x1024_1_0_0_1_n_n.contr.Idx) :
    (dot_S512x8_S8x1024_S512x1024_1_0_0_1_n_n.rhsIdx i q 1).val = (i 1).val := by
  unfold DotDims.rhsIdx
  rw [dif_neg (show ¬(1 : Fin S8x1024.rank) ∈ dot_S512x8_S8x1024_S512x1024_1_0_0_1_n_n.rhsBatch by decide), dif_pos (show (1 : Fin S8x1024.rank) ∈ dot_S512x8_S8x1024_S512x1024_1_0_0_1_n_n.rhsNonContracting by decide)]
  rfl

theorem dotB_lhs0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem dotB_lhs1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem dotB_rhs0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem dotB_rhs1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-! ## The zero block, the bias step and the accumulation step -/

/-- The zero block: the zero word denotes 0 at every index. -/
theorem pay3_apply (y : S1024x1024.Idx) : k0_pay3 (F := Ideal) y = (0 : EReal) := by
  unfold k0_pay3
  rw [shapeCast_self]
  exact Ideal.ofBits_zero_f32

/-- The bias step: the accumulator's entry plus the bias row's entry in the same column. -/
theorem pay2_apply (acc : Vec Ideal S1024x1024 .f32) (b : Vec Ideal S1x1024 .f32) (p e : Fin 1024) :
    k0_pay2 (F := Ideal) acc b (ix2 p e) = acc (ix2 p e) + b (ix2 (0 : Fin 1) e) := by
  unfold k0_pay2
  rw [shapeCast_self]
  refine congrArg (fun t => acc (ix2 p e) + t) ?_
  exact broadcastTo_apply b broadcasts_S1x1024_S1024x1024 (ix2 p e) (ix2 (0 : Fin 1) e) (fun a => match a with
    | ⟨0, _⟩ => rfl
    | ⟨1, _⟩ => rfl)

/-- The accumulation step: the accumulator's entry plus the row of x times the column of w. -/
theorem pay1_apply (w : FVec Ideal S512x1024 .bf16) (x : Vec Ideal S1024x512 .f32) (acc : Vec Ideal S1024x1024 .f32) (p e : Fin 1024) :
    k0_pay1 (F := Ideal) w x acc (ix2 p e) = acc (ix2 p e) + ∑ r : Fin 512, x (ix2 p r) * w (ix2 r e) := by
  unfold k0_pay1
  rw [shapeCast_self]
  refine congrArg (fun t => acc (ix2 p e) + t) ?_
  exact Cert.LibDot.matmul_zero_apply dot_S1024x512_S512x1024_S1024x1024_1_0_0_1_n_n rfl rfl
    dotB_lhs0 dotB_lhs1 dotB_rhs0 dotB_rhs1 none (truncf .bf16 x bitsLt_bf16_f32) w p e

/-! ## The dequantized weight tile

The selector block has a 1 at (r, g) exactly when row r lies in group g, that is r / 64 = g: the body computes the
floor quotient of the row number by 64 from the truncating quotient and remainder (subtract one when the signs of the
dividend and the divisor differ and the remainder is not zero), compares it with the column number, and converts the
resulting bit to a float. Its product with the scales block therefore picks, for row r, the scale row r / 64. -/

/-- One selector bit, as a word, from the row word `a` and the column word `c`: the floor quotient of `a` by 64 compared with `c`. -/
def selBit (a c : BitVec 32) : BitVec 32 :=
  (IntOp.cmpi .eq
    (Scalar.select
      (IntOp.andi
        (IntOp.cmpi .ne
          (IntOp.subi ((IntOp.cmpi .sgt a 0#32).setWidth 32) ((IntOp.cmpi .slt a 0#32).setWidth 32))
          (Scalar.subi (Scalar.extui (Scalar.cmpi .sgt 64#32 0#32)) (Scalar.extui (Scalar.cmpi .slt 64#32 0#32))))
        (IntOp.cmpi .ne (IntOp.remsi .vector a 64#32) 0#32))
      (IntOp.subi (IntOp.divsi .vector a 64#32) 1#32)
      (IntOp.divsi .vector a 64#32))
    c).setWidth 32

/-- On the 512 row numbers and the 8 column numbers the bit is 1 exactly when r / 64 = g: checked at each of the
    4096 pairs by evaluating the word operations. -/
theorem selBit_eq : ∀ r : Fin 512, ∀ g : Fin 8,
    selBit (BitVec.ofNat 32 r.val) (BitVec.ofNat 32 g.val) = if r.val / 64 = g.val then 1#32 else 0#32 := by
  decide +kernel

/-- The selector block: the bit at each index, from the index's two coordinates, converted to a float. -/
def selVec : FVec Ideal S512x8 .bf16 :=
  truncf .bf16 (sitofp .f32 (fun i : S512x8.Idx =>
    selBit (iota .tc S512x8 32 [0] iota_S512x8_d0_w32 i) (iota .tc S512x8 32 [1] iota_S512x8_d1_w32 i))) bitsLt_bf16_f32

/-- The selector block at (r, g) is 1 when r / 64 = g and 0 otherwise. -/
theorem selVec_apply (r : Fin 512) (g : Fin 8) :
    selVec (ix2 r g) = if r.val / 64 = g.val then (1 : EReal) else 0 := by
  show FloatOps.sitofp (F := Ideal) .f32 (selBit (iota .tc S512x8 32 [0] iota_S512x8_d0_w32 (ix2 r g))
    (iota .tc S512x8 32 [1] iota_S512x8_d1_w32 (ix2 r g))) = _
  rw [iota_single_apply, iota_single_apply]
  show FloatOps.sitofp (F := Ideal) .f32 (selBit (BitVec.ofNat 32 r.val) (BitVec.ofNat 32 g.val)) = _
  rw [selBit_eq r g]
  by_cases h : r.val / 64 = g.val
  · rw [if_pos h, if_pos h]
    show (((1#32 : BitVec 32).toInt : ℝ) : EReal) = 1
    have h1 : (1#32 : BitVec 32).toInt = 1 := by decide
    rw [h1]; simp
  · rw [if_neg h, if_neg h]
    show (((0#32 : BitVec 32).toInt : ℝ) : EReal) = 0
    have h0 : (0#32 : BitVec 32).toInt = 0 := by decide
    rw [h0]; simp

/-- The tile at an index, with the selector block named: the format changes are the identity and the product is
    taken entry by entry. -/
theorem pay4_eq (s : Vec Ideal S8x1024 .f32) (q : Vec Ideal S512x1024 .i32) (i : S512x1024.Idx) :
    k0_pay4 (F := Ideal) s q i
      = FloatOps.sitofp (F := Ideal) .f32 (shapeCast S512x1024 q shapeCasts_S512x1024_S512x1024 i)
        * FloatOps.matmul dot_S512x8_S8x1024_S512x1024_1_0_0_1_n_n none selVec
            (truncf .bf16 (shapeCast S8x1024 s shapeCasts_S8x1024_S8x1024) bitsLt_bf16_f32)
            (constant (F := Ideal) S512x1024 .f32 0x00000000#32) i := rfl

/-- The dequantized weight tile: the integer code times the scale of the row's group. -/
theorem pay4_apply (s : Vec Ideal S8x1024 .f32) (q : Vec Ideal S512x1024 .i32) (r : Fin 512) (e : Fin 1024) :
    k0_pay4 (F := Ideal) s q (ix2 r e)
      = FloatOps.sitofp (F := Ideal) .f32 (q (ix2 r e)) * s (ix2 (⟨r.val / 64, by have := r.isLt; omega⟩ : Fin 8) e) := by
  refine (pay4_eq s q (ix2 r e)).trans ?_
  rw [shapeCast_self, shapeCast_self]
  refine congrArg (fun t => FloatOps.sitofp (F := Ideal) .f32 (q (ix2 r e)) * t) ?_
  refine (Cert.LibDot.matmul_zero_apply dot_S512x8_S8x1024_S512x1024_1_0_0_1_n_n rfl rfl
    dotA_lhs0 dotA_lhs1 dotA_rhs0 dotA_rhs1 none selVec (truncf .bf16 s bitsLt_bf16_f32) r e).trans ?_
  rw [Finset.sum_eq_single (⟨r.val / 64, by have := r.isLt; omega⟩ : Fin 8)]
  · rw [selVec_apply, if_pos rfl, one_mul]
    rfl
  · intro g _ hg
    rw [selVec_apply, if_neg (fun h => hg (Fin.ext h.symm)), zero_mul]
  · intro h
    exact absurd (Finset.mem_univ _) h

end Cert.KernelIdeal.PayVal

end
-- ==== Proof.Accum.lean ====
/-
  The running block over the grid.

  Eight consecutive grid points share a row-block `i` and a column-block `j` and walk the 8 tiles of the contraction.
  The first resets the running block and adds tile 0; each later one adds its own tile to what the point before left.
  So after point `n` the running block is the sum of the first `n % 8 + 1` tiles, at every entry — an induction on the
  point, using only that addition on the extended reals has 0 as a left unit and that a sum over `K + 1` terms is the
  sum over the first `K` plus the last.
-/
import proofs.«109246_j86028194939446_1_alg».proof.Proof.Pieces
import proofs.«109246_j86028194939446_1_alg».proof.Proof.Blocks
import proofs.«109246_j86028194939446_1_alg».proof.Proof.Payloads
import proofs.«109246_j86028194939446_1_alg».proof.Proof.Tiles

noncomputable section

open scoped BigOperators
open Idealize.ShloMosaic Idealize.ShloMosaic.TcCoe Idealize.ShloMosaic.ValueIdx Idealize.SL.Sem
open Idealize.ShloMosaic.Pipeline (Dat)

namespace Cert.KernelIdeal.AccVal

open Cert.KernelIdeal Cert.KernelIdeal.Gen Cert.KernelIdeal.BlockVal Cert.GroupedGemm

/-! ## The running block as a partial sum of tiles -/

/-- Rows of row-block `i` against columns of column-block `j`, the first `K` tiles of the contraction summed. -/
def accOf (X : (⟨2, ![4096, 4096]⟩ : Shape).Idx → EReal) (Q : (⟨2, ![4096, 11264]⟩ : Shape).Idx → BitVec 32)
    (S : (⟨2, ![64, 11264]⟩ : Shape).Idx → EReal) (i : Fin 4) (j : Fin 11) (K : ℕ) (hK : K ≤ 8) :
    Vec Ideal S1024x1024 .f32 :=
  fun y => ∑ u : Fin K, tile X Q S (gRow i (y 0)) (gCol j (y 1)) ⟨u.val, lt_of_lt_of_le u.isLt hK⟩

theorem accOf_congr (X : (⟨2, ![4096, 4096]⟩ : Shape).Idx → EReal) (Q : (⟨2, ![4096, 11264]⟩ : Shape).Idx → BitVec 32)
    (S : (⟨2, ![64, 11264]⟩ : Shape).Idx → EReal) {i i' : Fin 4} {j j' : Fin 11} {K K' : ℕ} (hK : K ≤ 8) (hK' : K' ≤ 8)
    (hi : i = i') (hj : j = j') (hk : K = K') : accOf X Q S i j K hK = accOf X Q S i' j' K' hK' := by
  subst hi; subst hj; subst hk; rfl

/-- No tile summed: zero. -/
theorem accOf_zero (X : (⟨2, ![4096, 4096]⟩ : Shape).Idx → EReal) (Q : (⟨2, ![4096, 11264]⟩ : Shape).Idx → BitVec 32)
    (S : (⟨2, ![64, 11264]⟩ : Shape).Idx → EReal) (i : Fin 4) (j : Fin 11) (y : S1024x1024.Idx) :
    accOf X Q S i j 0 (Nat.zero_le 8) y = 0 := by
  unfold accOf
  exact Finset.sum_empty

/-- One more tile. -/
theorem accOf_succ (X : (⟨2, ![4096, 4096]⟩ : Shape).Idx → EReal) (Q : (⟨2, ![4096, 11264]⟩ : Shape).Idx → BitVec 32)
    (S : (⟨2, ![64, 11264]⟩ : Shape).Idx → EReal) (i : Fin 4) (j : Fin 11) (K : ℕ) (hK : K < 8) (p e : Fin 1024) :
    accOf X Q S i j K (le_of_lt hK) (ix2 p e) + tile X Q S (gRow i p) (gCol j e) ⟨K, hK⟩
      = accOf X Q S i j (K + 1) hK (ix2 p e) := by
  unfold accOf
  rw [Fin.sum_univ_castSucc]
  rfl

/-- All eight tiles: the whole contraction. -/
theorem accOf_all (X : (⟨2, ![4096, 4096]⟩ : Shape).Idx → EReal) (Q : (⟨2, ![4096, 11264]⟩ : Shape).Idx → BitVec 32)
    (S : (⟨2, ![64, 11264]⟩ : Shape).Idx → EReal) (i : Fin 4) (j : Fin 11) (p e : Fin 1024) :
    accOf X Q S i j 8 (le_refl 8) (ix2 p e) = dotAt X Q S (gRow i p) (gCol j e) := by
  rw [dotAt_tiles]
  rfl

/-! ## One update adds one tile -/

/-- With the three blocks of a point read where the point's coordinates say, the update `acc + x · w` at `(p, e)` adds
    tile `k`'s share for row `1024 i + p` and column `1024 j + e`: the dequantized weight tile at `(r, e)` is the code
    times the scale of group `r / 64` of the tile's eight, which is group `(512 k + r) / 64` of the 64. -/
theorem step_eq (X : (⟨2, ![4096, 4096]⟩ : Shape).Idx → EReal) (Q : (⟨2, ![4096, 11264]⟩ : Shape).Idx → BitVec 32)
    (S : (⟨2, ![64, 11264]⟩ : Shape).Idx → EReal) (i : Fin 4) (j : Fin 11) (k : Fin 8)
    (x0 : Vec Ideal S1024x512 .f32) (x1 : Vec Ideal S512x1024 .i32) (x2 : Vec Ideal S8x1024 .f32)
    (h0 : ∀ (p : Fin 1024) (r : Fin 512), x0 (ix2 p r) = X (ix2 (gRow i p) (row k r)))
    (h1 : ∀ (r : Fin 512) (e : Fin 1024), x1 (ix2 r e) = Q (ix2 (row k r) (gCol j e)))
    (h2 : ∀ (g : Fin 8) (e : Fin 1024), x2 (ix2 g e) = S (ix2 (gGrp k g) (gCol j e)))
    (acc : Vec Ideal S1024x1024 .f32) (p e : Fin 1024) :
    k0_pay1 (F := Ideal) (k0_pay4 x2 x1) x0 acc (ix2 p e) = acc (ix2 p e) + tile X Q S (gRow i p) (gCol j e) k := by
  refine (Cert.KernelIdeal.PayVal.pay1_apply (k0_pay4 x2 x1) x0 acc p e).trans ?_
  refine congrArg (acc (ix2 p e) + ·) ?_
  unfold tile
  refine Finset.sum_congr rfl fun r _ => ?_
  rw [h0, Cert.KernelIdeal.PayVal.pay4_apply x2 x1 r e, h1, h2]
  unfold deq
  have hg : gGrp k (⟨r.val / 64, by have := r.isLt; omega⟩ : Fin 8) = grp (row k r) := Fin.ext (grp_row_val k r).symm
  rw [hg]

variable (m : (ℓ : Loc nD τ sig) → Buf (Elt Ideal) ℓ)

/-- The update at grid point `t`, from the first `K = t % 8` tiles to the first `K + 1`. -/
theorem upd_eq (c : Dev nD) (t : Fin cfg0.N) (prev : Vec Ideal S1024x1024 .f32) (K : ℕ) (hK : K < 8) (hk : t.val % 8 = K)
    (hprev : prev = accOf (V m c main_arg0) (V m c main_v0) (V m c main_v1) (pi t) (pj t) K (le_of_lt hK)) :
    k0_pay1 (F := Ideal) (k0_pay4 (iblk m c 2 t) (iblk m c 1 t)) (iblk m c 0 t) prev
      = accOf (V m c main_arg0) (V m c main_v0) (V m c main_v1) (pi t) (pj t) (K + 1) hK := by
  funext y
  obtain ⟨p, e, rfl⟩ : ∃ (p e : Fin 1024), y = ix2 p e := ⟨y 0, y 1, eq_ix2 y⟩
  refine (step_eq (V m c main_arg0) (V m c main_v0) (V m c main_v1) (pi t) (pj t) (pk t)
    (iblk m c 0 t) (iblk m c 1 t) (iblk m c 2 t) (iblk0_apply m c t) (iblk1_apply m c t) (iblk2_apply m c t) prev p e).trans ?_
  have hpk : pk t = ⟨K, hK⟩ := Fin.ext hk
  rw [hpk, hprev]
  exact accOf_succ _ _ _ (pi t) (pj t) K hK p e

/-! ## The running block after every point -/

/-- After the first point of a group of 8 the running block holds tile 0. -/
theorem scratch_A (c : Dev nD) (t : Fin cfg0.N) (h0 : t.val % 8 = 0) :
    (outsAt0 m c t.val t.isLt).2
      = accOf (V m c main_arg0) (V m c main_v0) (V m c main_v1) (pi t) (pj t) (t.val % 8 + 1) (Nat.mod_lt _ (by decide)) := by
  have h1 : ¬t.val % 8 = 7 := by omega
  rw [outsAt0_A m c t h0 h1]
  dsimp only
  refine (Cert.KernelIdeal.PieceVal.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).trans ?_
  refine upd_eq m c t (k0_pay3 (F := Ideal)) (t.val % 8) (Nat.mod_lt _ (by decide)) rfl ?_
  funext y
  rw [Cert.KernelIdeal.PayVal.pay3_apply y,
    accOf_congr (V m c main_arg0) (V m c main_v0) (V m c main_v1) (le_of_lt (Nat.mod_lt t.val (by decide))) (Nat.zero_le 8) rfl rfl h0,
    accOf_zero]

/-- After point `n` the running block holds the first `n % 8 + 1` tiles of its block's contraction: by induction on
    the point, a point that is not the first of its 8 adding its tile to what the point before left (which has the
    same row-block and column-block). -/
theorem scratch_eq (c : Dev nD) : ∀ (n : ℕ) (hn : n < cfg0.N),
    (outsAt0 m c n hn).2
      = accOf (V m c main_arg0) (V m c main_v0) (V m c main_v1) (pi ⟨n, hn⟩) (pj ⟨n, hn⟩) (n % 8 + 1) (Nat.mod_lt _ (by decide))
  | 0, hn => scratch_A m c ⟨0, hn⟩ rfl
  | n + 1, hn => by
    by_cases h0 : (n + 1) % 8 = 0
    · exact scratch_A m c ⟨n + 1, hn⟩ h0
    · have ih := scratch_eq c n (Nat.lt_of_succ_lt hn)
      have hN : n + 1 < 352 := lt_of_lt_of_eq hn N_eq
      have hprev : (outsAt0 m c n (Nat.lt_of_succ_lt hn)).2
          = accOf (V m c main_arg0) (V m c main_v0) (V m c main_v1) (pi ⟨n + 1, hn⟩) (pj ⟨n + 1, hn⟩) ((n + 1) % 8)
              (le_of_lt (Nat.mod_lt _ (by decide))) :=
        ih.trans (accOf_congr _ _ _ _ _ (Fin.ext (by show n / 88 = (n + 1) / 88; omega))
          (Fin.ext (by show n / 8 % 11 = (n + 1) / 8 % 11; omega)) (by omega))
      by_cases h1 : (n + 1) % 8 = 7
      · rw [outsAt0_C m c ⟨n + 1, hn⟩ h0 h1]
        dsimp only
        refine (Cert.KernelIdeal.PieceVal.sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) _).trans ?_
        exact upd_eq m c ⟨n + 1, hn⟩ _ ((n + 1) % 8) (Nat.mod_lt _ (by decide)) rfl hprev
      · rw [outsAt0_B m c ⟨n + 1, hn⟩ h0 h1]
        dsimp only
        refine (Cert.KernelIdeal.PieceVal.sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) _).trans ?_
        exact upd_eq m c ⟨n + 1, hn⟩ _ ((n + 1) % 8) (Nat.mod_lt _ (by decide)) rfl hprev

end Cert.KernelIdeal.AccVal

end
-- ==== Proof.HostSide.lean ====
/-
  What the kernel's region finds in the padded arrays, read below column 11008.

  Before the region the program pads the integer codes [4096, 11008], the scales [64, 11008] and the bias [11008] with
  256 extra columns on the high side, filled with the constant 0 (converted to a float for the scales and the bias),
  and views the padded bias [11264] as a one-row matrix [1, 11264].  There is no low and no interior padding, so an
  entry of a padded array at a column `n < 11008` is the entry of the argument array at the same coordinates, and
  the one-row view of the bias at `(0, n)` is entry `n`.  The padding value plays no part below column 11008.
-/
import proofs.«109246_j86028194939446_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostVal

open Cert.KernelIdeal Cert.KernelIdeal.Gen Idealize.ShloMosaic Idealize.ShloMosaic.TcCoe Idealize.ShloMosaic.ValueIdx Idealize.SL.Sem

/-- Column `n < 11008` of an argument array, as a column of the array padded to 11264 columns. -/
def col (n : Fin 11008) : Fin 11264 := ⟨n.val, by have := n.isLt; omega⟩

/-- A matrix of 11008 columns padded with 256 more on the high side reads, at a column below 11008, the matrix itself:
    with no low and no interior padding the source coordinate on each axis is the coordinate. -/
theorem pad_cols_apply {α : Type} {R : Nat} (x : (⟨2, ![R, 11008]⟩ : Shape).Idx → α) {u : Shape} (v : u.Idx → α)
    (h : (⟨2, ![R, 11008]⟩ : Shape).Pads (![0, 0] : Fin 2 → Nat) ![0, 256] ![0, 0] ⟨2, ![R, 11264]⟩) (hu : 0 < u.numel)
    (r : Fin R) (n : Fin 11008) :
    pad ⟨2, ![R, 11264]⟩ ![0, 0] ![0, 256] ![0, 0] x v h hu (ix2 r (col n)) = x (ix2 r n) :=
  pad_apply_of_inside _ _ _ x v h hu _ _ (fun a => match a with
    | ⟨0, _⟩ => by show r.val = 0 + r.val * (0 + 1); omega
    | ⟨1, _⟩ => by show n.val = 0 + n.val * (0 + 1); omega)

/-- The same for a vector of 11008 entries padded to 11264. -/
theorem pad_vec_apply {α : Type} (x : (⟨1, ![11008]⟩ : Shape).Idx → α) {u : Shape} (v : u.Idx → α)
    (h : (⟨1, ![11008]⟩ : Shape).Pads (![0] : Fin 1 → Nat) ![256] ![0] ⟨1, ![11264]⟩) (hu : 0 < u.numel)
    (n : Fin 11008) :
    pad ⟨1, ![11264]⟩ ![0] ![256] ![0] x v h hu (ix1 (col n)) = x (ix1 n) :=
  pad_apply_of_inside _ _ _ x v h hu _ _ (fun a => match a with
    | ⟨0, _⟩ => by show n.val = 0 + n.val * (0 + 1); omega)

/-- A vector of `N` entries viewed as a one-row matrix reads, at `(0, j)`, entry `j`: both have flat position `j`. -/
theorem row_cast_apply {α : Type} {N : Nat} (x : (⟨1, ![N]⟩ : Shape).Idx → α)
    (h : (⟨1, ![N]⟩ : Shape).ShapeCasts ⟨2, ![1, N]⟩) (u : Fin 1) (j : Fin N) :
    shapeCast ⟨2, ![1, N]⟩ x h (ix2 u j) = x (ix1 j) :=
  shapeCast_apply x h _ _ (by
    have hu : u.val = 0 := by omega
    rw [Shape.rowMajor_val_one, Shape.rowMajor_val_two]
    show j.val = u.val * N + j.val
    rw [hu, Nat.zero_mul, Nat.zero_add])

variable {F : FTy → Type} [FloatOps F] (m : (ℓ : Loc nD τ sig) → Buf (Elt F) ℓ)

/-- When the region is entered the padded codes are the codes padded with the integer constant 0. -/
theorem V_codes_eq (c : Dev nD) :
    (V m c main_v0 : S4096x11264.Idx → Elt F .i32)
      = pad S4096x11264 ![0, 0] ![0, 256] ![0, 0] (m ((c : Thread nD τ).loc main_arg1)) (constantI S_ 32 0#32)
          pads_S4096x11008_S4096x11264_000_02560 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded scales are the scales padded with the constant 0 converted to a float. -/
theorem V_scales_eq (c : Dev nD) :
    (V m c main_v1 : S64x11264.Idx → Elt F .f32)
      = pad S64x11264 ![0, 0] ![0, 256] ![0, 0] (m ((c : Thread nD τ).loc main_arg2))
          (sitofp (F := F) .f32 (constantI S_ 32 0#32)) pads_S64x11008_S64x11264_000_02560 h_S_ := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded bias, as a one-row matrix, is the bias padded with the converted constant 0 and reshaped. -/
theorem V_bias_eq (c : Dev nD) :
    (V m c main_v3 : S1x11264.Idx → Elt F .f32)
      = shapeCast S1x11264 (pad S11264 ![0] ![256] ![0] (m ((c : Thread nD τ).loc main_arg3))
          (sitofp (F := F) .f32 (constantI S_ 32 0#32)) pads_S11008_S11264_02560 h_S_) shapeCasts_S11264_S1x11264 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- Below column 11008 the padded codes are the codes. -/
theorem V_codes_apply (c : Dev nD) (k : Fin 4096) (n : Fin 11008) :
    (V m c main_v0 : S4096x11264.Idx → Elt F .i32) (ix2 k (col n))
      = (m ((c : Thread nD τ).loc main_arg1) : S4096x11008.Idx → Elt F .i32) (ix2 k n) :=
  (congrFun (V_codes_eq m c) (ix2 k (col n))).trans
    (pad_cols_apply (m ((c : Thread nD τ).loc main_arg1) : S4096x11008.Idx → Elt F .i32) _
      pads_S4096x11008_S4096x11264_000_02560 h_S_ k n)

/-- Below column 11008 the padded scales are the scales. -/
theorem V_scales_apply (c : Dev nD) (g : Fin 64) (n : Fin 11008) :
    (V m c main_v1 : S64x11264.Idx → Elt F .f32) (ix2 g (col n))
      = (m ((c : Thread nD τ).loc main_arg2) : S64x11008.Idx → Elt F .f32) (ix2 g n) :=
  (congrFun (V_scales_eq m c) (ix2 g (col n))).trans
    (pad_cols_apply (m ((c : Thread nD τ).loc main_arg2) : S64x11008.Idx → Elt F .f32) _
      pads_S64x11008_S64x11264_000_02560 h_S_ g n)

/-- Below column 11008 the one row of the padded bias is the bias. -/
theorem V_bias_apply (c : Dev nD) (n : Fin 11008) :
    (V m c main_v3 : S1x11264.Idx → Elt F .f32) (ix2 (0 : Fin 1) (col n))
      = (m ((c : Thread nD τ).loc main_arg3) : S11008.Idx → Elt F .f32) (ix1 n) :=
  (congrFun (V_bias_eq m c) (ix2 (0 : Fin 1) (col n))).trans
    ((row_cast_apply _ shapeCasts_S11264_S1x11264 (0 : Fin 1) (col n)).trans
      (pad_vec_apply (m ((c : Thread nD τ).loc main_arg3) : S11008.Idx → Elt F .f32) _
        pads_S11008_S11264_02560 h_S_ n))

end Cert.KernelIdeal.HostVal

end
-- ==== Proof.Final.lean ====
/-
  From the grid to the program's result.

  At the last point of each group of 8 the body writes the running block — by then all 8 tiles, the whole contraction —
  plus the bias row to the output block, and only those points' blocks are written back.  There are 4 × 11 such blocks
  of 1024 × 1024 and they tile the [4096, 11264] result array, so the array ends holding the product over the padded
  arrays at every entry.  The host then keeps the first 11008 columns; a column of the product depends only on that
  column of the codes, the scales and the bias, and below column 11008 the padded arrays are the arguments.
-/
import proofs.«109246_j86028194939446_1_alg».proof.Proof.Accum
import proofs.«109246_j86028194939446_1_alg».proof.Proof.HostSide
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.FinalVal

open Cert.KernelIdeal Cert.KernelIdeal.Gen Cert.KernelIdeal.BlockVal Cert.KernelIdeal.AccVal Cert.GroupedGemm

variable (m : (ℓ : Loc nD τ sig) → Buf (Elt Ideal) ℓ) (ρ : Dev nD → PrngReg)

/-- The padded bias as a vector: the one row of the bias row. -/
def biasVec (c : Dev nD) : (⟨1, ![11264]⟩ : Shape).Idx → EReal :=
  fun i => (V m c main_v3 : S1x11264.Idx → Elt Ideal .f32) (ix2 (0 : Fin 1) (i 0))

/-- What the region's result array should end holding: the product over the padded arrays, all 11264 columns. -/
def Gpad (c : Dev nD) : (⟨2, ![4096, 11264]⟩ : Shape).Idx → EReal :=
  G (V m c main_arg0) (V m c main_v0) (V m c main_v1) (biasVec m c)

/-- At the last point of a group of 8 the output block is the whole contraction plus the bias, entry by entry. -/
theorem out_last (c : Dev nD) (t : Fin cfg0.N) (h7 : t.val % 8 = 7) (p e : Fin 1024) :
    (outsAt0 m c t.val t.isLt).1 (ix2 p e) = Gpad m c (ix2 (gRow (pi t) p) (gCol (pj t) e)) := by
  have h0 : ¬t.val % 8 = 0 := by omega
  have hN : t.val < 352 := lt_N t
  have hprev : (outsAt0 m c (t.val - 1) (Nat.lt_of_le_of_lt (Nat.sub_le _ _) t.isLt)).2
      = accOf (V m c main_arg0) (V m c main_v0) (V m c main_v1) (pi t) (pj t) 7 (by decide) :=
    (scratch_eq m c (t.val - 1) _).trans (accOf_congr _ _ _ _ _ (Fin.ext (by show (t.val - 1) / 88 = t.val / 88; omega))
      (Fin.ext (by show (t.val - 1) / 8 % 11 = t.val / 8 % 11; omega)) (by omega))
  rw [outsAt0_C m c t h0 h7]
  dsimp only
  refine (congrFun (Cert.KernelIdeal.PieceVal.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) _) (ix2 p e)).trans ?_
  refine (Cert.KernelIdeal.PayVal.pay2_apply _ (iblk m c 3 t) p e).trans ?_
  rw [iblk3_apply m c t e, congrFun (upd_eq m c t _ 7 (by decide) h7 hprev) (ix2 p e)]
  have hall : accOf (V m c main_arg0) (V m c main_v0) (V m c main_v1) (pi t) (pj t) (7 + 1) (by decide) (ix2 p e)
      = dotAt (V m c main_arg0) (V m c main_v0) (V m c main_v1) (gRow (pi t) p) (gCol (pj t) e) :=
    accOf_all _ _ _ (pi t) (pj t) p e
  rw [hall]
  unfold Gpad
  rw [G_apply]
  unfold Gat biasVec
  rfl

/-- So what such a point writes back is its block of `Gpad`. -/
theorem flushed_eq (c : Dev nD) (t : Fin cfg0.N) (hf : (cfg0.win 4).flush t = true) :
    (dats m 0 c).flushed 4 t = ((cfg0.win 4).blk t).view.read (Elt Ideal) (Gpad m c) := by
  have h7 : t.val % 8 = 7 := (flush0_4 t).mp hf
  have hi := idx4 t
  show (cfg0.win 4).cut (grid0.coords t) ((dats m 0 c).after 4 t) = _
  rw [after0_4]
  funext y
  obtain ⟨p, e, rfl⟩ : ∃ (p e : Fin 1024), y = ix2 p e := ⟨y 0, y 1, eq_ix2 y⟩
  rw [View.read_apply]
  show (outsAt0 m c t.val t.isLt).1 (ix2 p e) = Gpad m c _
  rw [out_last m c t h7 p e]
  refine congrArg (Gpad m c) (funext fun a => Fin.ext ?_)
  match a with
  | ⟨0, _⟩ => show 1024 * (t.val / 88) + p.val = win0_4.index t 0 * 1024 + 1 * p.val; rw [hi.1]; omega
  | ⟨1, _⟩ => show 1024 * (t.val / 8 % 11) + e.val = win0_4.index t 1 * 1024 + 1 * e.val; rw [hi.2]; omega

/-- The point that writes back the block holding entry `(P, E)`: the last of the 8 of row-block `P / 1024` and
    column-block `E / 1024`. -/
def lastPt (P : Fin 4096) (E : Fin 11264) : Fin cfg0.N :=
  ⟨(P.val / 1024 * 11 + E.val / 1024) * 8 + 7, by rw [N_eq]; have := P.isLt; have := E.isLt; omega⟩

/-- The 4 × 11 written-back blocks tile the result array, so it ends holding `Gpad`. -/
theorem final_o (c : Dev nD) : (dats m 0 c).arrAt 4 cfg0.N = Gpad m c :=
  (dats m 0 c).arrAt_eq_of_cover 4 (Gpad m c) (flushed_eq m c) fun i =>
    ⟨lastPt (i 0) (i 1), (flush0_4 _).mpr (by show (((i 0).val / 1024 * 11 + (i 1).val / 1024) * 8 + 7) % 8 = 7; omega), by
      have hi := idx4 (lastPt (i 0) (i 1))
      have h0 : (i 0 : Nat) < 4096 := (i 0).isLt
      have h1 : (i 1 : Nat) < 11264 := (i 1).isLt
      show i ∈ ((View.whole main_v4).slice (win0_4.rect (lastPt (i 0) (i 1)))).set
      rw [View.set_slice_whole, Rect.mem_set_unit]
      intro a
      match a with
      | ⟨0, _⟩ =>
        show win0_4.index (lastPt (i 0) (i 1)) 0 * 1024 ≤ (i 0 : Nat) ∧ (i 0 : Nat) < win0_4.index (lastPt (i 0) (i 1)) 0 * 1024 + 1024
        rw [hi.1]
        show (((i 0).val / 1024 * 11 + (i 1).val / 1024) * 8 + 7) / 88 * 1024 ≤ (i 0 : Nat) ∧ (i 0 : Nat) < (((i 0).val / 1024 * 11 + (i 1).val / 1024) * 8 + 7) / 88 * 1024 + 1024
        omega
      | ⟨1, _⟩ =>
        show win0_4.index (lastPt (i 0) (i 1)) 1 * 1024 ≤ (i 1 : Nat) ∧ (i 1 : Nat) < win0_4.index (lastPt (i 0) (i 1)) 1 * 1024 + 1024
        rw [hi.2]
        show (((i 0).val / 1024 * 11 + (i 1).val / 1024) * 8 + 7) / 8 % 11 * 1024 ≤ (i 1 : Nat) ∧ (i 1 : Nat) < (((i 0).val / 1024 * 11 + (i 1).val / 1024) * 8 + 7) / 8 % 11 * 1024 + 1024
        omega⟩

/-! ## The host's slice, and the run -/

/-- After the region the program keeps columns `0 … 11007` of the result array. -/
theorem tail_eq (c : Dev nD) :
    Pipeline.afterTail₀ cfgs (dats m) 0 (V0 m) [hostOps1] c main_v5
      = extractStridedSlice S4096x11008 ![0, 0] (Gpad m c) slices_S4096x11264_S4096x11008_0_0 := by
  unfold Pipeline.afterTail₀
  show StableHlo.after hostOps1 _ (Proc.devRef .tc main_v5) = _
  after_results
  exact congrArg (fun x => extractStridedSlice S4096x11008 ![0, 0] x slices_S4096x11264_S4096x11008_0_0)
    ((Pipeline.withArrays_arr spec0 launch0.win.arr_inj c (V0 m c) (fun w => (dats m 0 c).arrAt w cfg0.N) 4).trans (final_o m c))

/-- The product over the argument arrays as launched: what the program's result should be. -/
def KG (c : Dev nD) : (⟨2, ![4096, 11008]⟩ : Shape).Idx → EReal :=
  G (m ((c : Thread nD τ).loc main_arg0)) (m ((c : Thread nD τ).loc main_arg1)) (m ((c : Thread nD τ).loc main_arg2))
    (m ((c : Thread nD τ).loc main_arg3))

/-- A kept column reads only that column of the padded codes, scales and bias, where they are the arguments: the
    slice of the padded product is the product of the arguments. -/
theorem slice_eq (c : Dev nD) :
    extractStridedSlice S4096x11008 ![0, 0] (Gpad m c) slices_S4096x11264_S4096x11008_0_0 = KG m c := by
  funext i
  obtain ⟨p, n, rfl⟩ : ∃ (p : Fin 4096) (n : Fin 11008), i = ix2 p n := ⟨i 0, i 1, eq_ix2 i⟩
  unfold extractStridedSlice
  have hidx : ∀ (h0 : 0 + p.val < 4096) (h1 : 0 + n.val < 11264),
      (ix2 (⟨0 + p.val, h0⟩ : Fin 4096) (⟨0 + n.val, h1⟩ : Fin 11264)) = ix2 p (Cert.KernelIdeal.HostVal.col n) := fun h0 h1 =>
    funext fun a => Fin.ext (by
      match a with
      | ⟨0, _⟩ => show 0 + p.val = p.val; omega
      | ⟨1, _⟩ => show 0 + n.val = n.val; omega)
  show Gpad m c _ = _
  refine (congrArg (Gpad m c) (funext fun a => Fin.ext ?_ : _ = ix2 p (Cert.KernelIdeal.HostVal.col n))).trans ?_
  · match a with
    | ⟨0, _⟩ => show 0 + p.val = p.val; omega
    | ⟨1, _⟩ => show 0 + n.val = n.val; omega
  · unfold Gpad KG
    rw [G_apply, G_apply, V_main_arg0 m c]
    exact Gat_congr _ _ _ _ _ _ _ p n (Cert.KernelIdeal.HostVal.col n)
      (fun k => Cert.KernelIdeal.HostVal.V_codes_apply m c k n) (fun g => Cert.KernelIdeal.HostVal.V_scales_apply m c g n)
      (Cert.KernelIdeal.HostVal.V_bias_apply m c n)

/-- The idealized kernel program, run: every weakly fair execution ends with the result at the product of the
    argument arrays and the arguments as launched. -/
theorem run : θ_run defs (onTc (τ := τ) (main (F := Ideal))) ⟨m, fun _ => 0, ρ⟩ fun r => ∀ c : Dev nD,
      r.2.mem ((c.tc : Thread nD τ).loc main_v5) = KG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans ((tail_eq m c).trans (slice_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.FinalVal

end
-- ==== Proof.RefSide.lean ====
/-
  The reference program's result, read at the extended reals, is the grouped weight-quantized product `G`.

  The reference converts the integer codes to reals, repeats each of the 64 rows of scales 64 times (a broadcast into
  a [64, 64, N] array followed by a reshape to [4096, N]), multiplies the two entrywise, contracts the 4096 rows of
  the product against the rows of `X`, and adds the bias repeated along the rows.  Reading the result at `(p, n)`
  and following each operation back to the element of its operand it reads gives
  `(∑ₖ X[p, k] · (Q[k, n] · S[k / 64, n])) + B[n]`: the only arithmetic is that the flat position `k · 11008 + n`
  of the reshaped array has leading coordinate `k / 64` and trailing coordinate `n` in the [64, 64, 11008] array.
-/
import proofs.«109246_j86028194939446_1_alg».proof.Proof.Gen.ReferenceIdeal.Read
import proofs.«109246_j86028194939446_1_alg».proof.Proof.Spec

noncomputable section

open Idealize.ShloMosaic Idealize.ShloMosaic.ValueIdx
open scoped BigOperators

namespace Cert.ReferenceIdeal.RefValue

open Cert.GroupedGemm

/-- The contraction reads `X` at `(p, k)`. -/
theorem lidx_eq (p : Fin 4096) (n : Fin 11008) (k : Fin 4096) :
    Read.lidx_main_v4 (ix2 p n) k = ix2 p k :=
  funext fun a => match a with
    | ⟨0, _⟩ => rfl
    | ⟨1, _⟩ => rfl

/-- The contraction reads the dequantized weight at `(k, n)`. -/
theorem ridx_eq (p : Fin 4096) (n : Fin 11008) (k : Fin 4096) :
    Read.ridx_main_v4 (ix2 p n) k = ix2 k n :=
  funext fun a => match a with
    | ⟨0, _⟩ => rfl
    | ⟨1, _⟩ => rfl

/-- The twice-broadcast bias reads `B` at `n`. -/
theorem bidx_eq (p : Fin 4096) (n : Fin 11008) :
    Read.idx_main_v5 (Read.idx_main_v6 (ix2 p n)) = ix1 n :=
  funext fun a => match a with
    | ⟨0, _⟩ => rfl

/-- The repeated scales at `(k, n)` read `S` at `(k / 64, n)`: the flat position `k · 11008 + n` has leading
    coordinate `(k · 11008 + n) / (64 · 11008) = k / 64` and trailing coordinate `(k · 11008 + n) % 11008 = n`. -/
theorem sidx_eq (k : Fin 4096) (n : Fin 11008) :
    Read.idx_main_v1 (Read.idx_main_v2 (ix2 k n)) = ix2 (grp k) n :=
  funext fun a => Fin.ext (by
    have hk : k.val < 4096 := k.isLt
    have hn : n.val < 11008 := n.isLt
    match a with
    | ⟨0, _⟩ => show (k.val * 11008 + n.val) / 704512 = k.val / 64; omega
    | ⟨1, _⟩ => show (k.val * 11008 + n.val) % 11008 = n.val; omega)

theorem ref_eq
    (X : (⟨Cert.ReferenceIdeal.S4096x4096, .f32⟩ : BufTy).Contents (Elt Ideal))
    (Q : (⟨Cert.ReferenceIdeal.S4096x11008, .i32⟩ : BufTy).Contents (Elt Ideal))
    (S : (⟨Cert.ReferenceIdeal.S64x11008, .f32⟩ : BufTy).Contents (Elt Ideal))
    (B : (⟨Cert.ReferenceIdeal.S11008, .f32⟩ : BufTy).Contents (Elt Ideal)) :
    Cert.ReferenceIdeal.Read.val_main_v7 (F := Ideal) X Q S B = Cert.GroupedGemm.G X Q S B := by
  funext i
  obtain ⟨p, n, rfl⟩ : ∃ (p : Fin 4096) (n : Fin 11008), i = ix2 p n := ⟨i 0, i 1, eq_ix2 i⟩
  rw [Read.val_main_v7_apply, Read.val_main_v4_apply, Read.val_main_v6_apply, Read.val_main_v5_apply, bidx_eq,
    G_apply]
  unfold Gat dotAt deq
  refine congrArg (· + B (ix1 n)) (Finset.sum_congr rfl fun k _ => ?_)
  rw [lidx_eq, ridx_eq, Read.val_main_v3_apply, Read.val_main_v0_apply, Read.val_main_v2_apply,
    Read.val_main_v1_apply, sidx_eq]
  rfl

end Cert.ReferenceIdeal.RefValue

end
-- ==== Proof.lean ====
/-
  A grouped, weight-quantized product against its plain reference, on the extended reals.

  The kernel multiplies `X` [4096, 4096] by a weight stored as integer codes `Q` [4096, 11008] with one scale per
  group of 64 rows, `S` [64, 11008], and adds a bias `B` [11008].  It pads the columns to 11264, walks a
  4 × 11 × 8 grid of 1024 × 1024 output blocks and 8 contraction tiles of 512 rows, keeps a running block across the
  8 tiles, rebuilds each tile's per-row scales from its 8 group scales by a product with a 0/1 matrix, and slices the
  padding off at the end.  The reference dequantizes the whole weight at once, contracts all 4096 rows in one product
  and adds the bias.  Read on the extended reals, where a change of float format is the identity, both are
      out[p, n] = (∑ₖ X[p, k] · (Q[k, n] · S[k / 64, n])) + B[n]:
  the 0/1 product picks the scale of group `r / 64` (`0 · x = 0` and `1 · x = x` for every extended real), row
  `512 t + r` has group `8 t + r / 64`, the running block after tile `t` is the sum of the first `t + 1` tiles, and a sum
  over 4096 rows is the sum of its 8 tiles' sums.  Only associativity and commutativity of addition are used, so the
  precondition (finite inputs) is never opened.
-/
import proofs.«109246_j86028194939446_1_alg».proof.Defs
import proofs.«109246_j86028194939446_1_alg».proof.Proof.Gen.Kernel
import proofs.«109246_j86028194939446_1_alg».proof.Proof.Gen.Kernel.Skeleton
import proofs.«109246_j86028194939446_1_alg».proof.Proof.Gen.Kernel.Launch
import proofs.«109246_j86028194939446_1_alg».proof.Proof.Gen.Kernel.Points
import proofs.«109246_j86028194939446_1_alg».proof.Proof.Gen.Kernel.Frame
import proofs.«109246_j86028194939446_1_alg».proof.Proof.Gen.KernelIdeal
import proofs.«109246_j86028194939446_1_alg».proof.Proof.Gen.KernelIdeal.Skeleton
import proofs.«109246_j86028194939446_1_alg».proof.Proof.Gen.KernelIdeal.Launch
import proofs.«109246_j86028194939446_1_alg».proof.Proof.Gen.KernelIdeal.Points
import proofs.«109246_j86028194939446_1_alg».proof.Proof.Gen.KernelIdeal.Frame
import proofs.«109246_j86028194939446_1_alg».proof.Proof.Gen.ReferenceIdeal
import proofs.«109246_j86028194939446_1_alg».proof.Proof.Gen.ReferenceIdeal.Run
import proofs.«109246_j86028194939446_1_alg».proof.Proof.Gen.ReferenceIdeal.Read
import proofs.«109246_j86028194939446_1_alg».proof.Proof.Gen.Pre_finite_inputs
import proofs.«109246_j86028194939446_1_alg».proof.Proof.Final
import proofs.«109246_j86028194939446_1_alg».proof.Proof.RefSide
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the product `G` of the argument arrays: the kernel by the induction over its grid and
    the tiling of the contraction, the reference by reading its operations back at an index. -/
theorem algebraic : Cert.algebraic_KernelIdeal_ReferenceIdeal := by
  intro m ρ m' ρ' _ hagree
  refine ⟨fun c => Cert.KernelIdeal.FinalVal.KG m c, Cert.KernelIdeal.FinalVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
